-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S4096x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S1024x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KFrame.lean ====
/-
  The frame of the fused LSTM-cell program `Kernel`, at any float instance: every weakly fair execution of @main
  terminates, nothing faults, and each argument array ends as it began.

  @main first joins the four gates' weight matrices (and biases) along the leading axis and narrows the two joined
  matrices' format; then ONE launch over 16 grid points: point `t` is handed rows 256·t … 256·t+255 of x, h_prev and
  c_prev, the two whole joined weight matrices and the joined bias row (fetched once: their block index never moves),
  loads them all, and overwrites its two output blocks completely (one full-block store each). So nothing the body
  needs is carried from one point to the next: after the body each input buffer still holds its block and each
  output buffer holds the body's stored value, a pure function (`newH`, `newC`) of the point's input blocks.
-/
import proofs.«141358_j47588237639946_2_alg».proof.Proof.Gen.Kernel.Launch
import proofs.«141358_j47588237639946_2_alg».proof.Proof.Gen.Kernel.Skeleton
import proofs.«141358_j47588237639946_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the launch begins: the launch contents run through the six joining,
    narrowing and reshaping operations. -/
abbrev V (c : Dev nD) (b : Ref sig .tc) : Buf (Elt F) ((c : Thread nD τ).loc b) := StableHlo.after hostOps0 (fun b => m (c, b)) b

/-- None of the six operations allocates. -/
theorem hostOps0_fresh : (hostOps0 : List (HloOp τ sig (Elt F))).Forall fun op => op.fresh = ∅ := by
  simp only [List.Forall]; repeat' constructor

/-- @main is those operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point — fetched there, or still there from the
    point that fetched it, the block index not having moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point — fetched there, or still there from the
    point that fetched it, the block index not having moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point — fetched there, or still there from the
    point that fetched it, the block index not having moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point — fetched there, or still there from the
    point that fetched it, the block index not having moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point — fetched there, or still there from the
    point that fetched it, the block index not having moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point — fetched there, or still there from the
    point that fetched it, the block index not having moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame -/

/-- The launch's post, read at the fifteen argument arrays: a staged one through its window, the others as
    buffers no window stages; each is then as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      ((h c).2 main_arg12 (by decide)).trans (V_main_arg12 m c),
      ((h c).2 main_arg13 (by decide)).trans (V_main_arg13 m c),
      ((h c).2 main_arg14 (by decide)).trans (V_main_arg14 m c)⟩

/-- So a run to the launch's post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses: each is the whole buffer -/

abbrev rRow : Rect S256x1024 := Rect.unit (s := S256x1024) ![0, 0] S256x1024.size inb_S256x1024_S256x1024_0_0
abbrev rWgt : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in the two output buffers -/

/-- The new hidden state's block: the one full-block store of o · tanh(c'), as a function of the six input blocks. -/
def newH (x0 x1 x2 : Vec F S256x1024 .f32) (x3 x4 : Vec F S4096x1024 .bf16) (x5 : Vec F S1x4096 .f32) : Vec F S256x1024 .f32 :=
  View.canon [⟨rRow, k0_pay3 (View.ld x0 rRow) (View.ld x1 rRow) (View.ld x3 rWgt) (View.ld x4 rWgt) (View.ld x5 rBias) (View.ld x2 rRow)⟩]

/-- The new cell state's block: the one full-block store of f · c + i · g. -/
def newC (x0 x1 x2 : Vec F S256x1024 .f32) (x3 x4 : Vec F S4096x1024 .bf16) (x5 : Vec F S1x4096 .f32) : Vec F S256x1024 .f32 :=
  View.canon [⟨rRow, k0_pay2 (View.ld x0 rRow) (View.ld x1 rRow) (View.ld x3 rWgt) (View.ld x4 rWgt) (View.ld x5 rBias) (View.ld x2 rRow)⟩]

/-- One store through the whole-buffer rectangle covers the buffer. -/
theorem coverRow (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The body on whole buffers — the six inputs' at known contents, the two outputs' at anything — runs to its end
    leaving the inputs as they were and the outputs at `newH`, `newC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newH x0 x1 x2 x3 x4 x5) ∗ owns (c : Thread nD τ) arg8 fullShare (newC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRow _)
  iexists _; isplitr
  swap; · iexact H7
  ipureintro
  exact View.read_writes_eq_canon _ _ _ (coverRow _)

/-! ## The launch's proof data -/

/-- On core `c`: the arrays as the launch finds them; after the body at point `t` each input buffer at its block and
    the two output buffers at `newH`, `newC` of the point's input blocks; the kernel keeps nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newH (iblk m c 0 t) (iblk m c 1 t) (iblk m c 2 t) (iblk m c 3 t) (iblk m c 4 t) (iblk m c 5 t)
    | ⟨7, _⟩ => newC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = newH (iblk m c 0 t) (iblk m c 1 t) (iblk m c 2 t) (iblk m c 3 t) (iblk m c 4 t) (iblk m c 5 t) := by dsimp only [dats]
theorem after7 (c : Dev nD) (t : Fin cfg0.N) : (dats m 0 c).after 7 t = newC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards each window's array is its contents at the launch
    with the blocks the points wrote back laid over them (nothing, for an input), and every other buffer that
    outlives the launch is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frm

end
-- ==== Proof.KIFrame.lean ====
/-
  The frame of the fused LSTM-cell program `KernelIdeal`, at any float instance: every weakly fair execution of @main
  terminates, nothing faults, and each argument array ends as it began.

  @main first joins the four gates' weight matrices (and biases) along the leading axis and narrows the two joined
  matrices' format; then ONE launch over 16 grid points: point `t` is handed rows 256·t … 256·t+255 of x, h_prev and
  c_prev, the two whole joined weight matrices and the joined bias row (fetched once: their block index never moves),
  loads them all, and overwrites its two output blocks completely (one full-block store each). So nothing the body
  needs is carried from one point to the next: after the body each input buffer still holds its block and each
  output buffer holds the body's stored value, a pure function (`newH`, `newC`) of the point's input blocks.
-/
import proofs.«141358_j47588237639946_2_alg».proof.Proof.Gen.KernelIdeal.Launch
import proofs.«141358_j47588237639946_2_alg».proof.Proof.Gen.KernelIdeal.Skeleton
import proofs.«141358_j47588237639946_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- What core `c`'s buffers hold when the launch begins: the launch contents run through the six joining,
    narrowing and reshaping operations. -/
abbrev V (c : Dev nD) (b : Ref sig .tc) : Buf (Elt F) ((c : Thread nD τ).loc b) := StableHlo.after hostOps0 (fun b => m (c, b)) b

/-- None of the six operations allocates. -/
theorem hostOps0_fresh : (hostOps0 : List (HloOp τ sig (Elt F))).Forall fun op => op.fresh = ∅ := by
  simp only [List.Forall]; repeat' constructor

/-- @main is those operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No operation before the launch writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point — fetched there, or still there from the
    point that fetched it, the block index not having moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point — fetched there, or still there from the
    point that fetched it, the block index not having moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point — fetched there, or still there from the
    point that fetched it, the block index not having moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point — fetched there, or still there from the
    point that fetched it, the block index not having moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point — fetched there, or still there from the
    point that fetched it, the block index not having moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point — fetched there, or still there from the
    point that fetched it, the block index not having moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch's post to the frame -/

/-- The launch's post, read at the fifteen argument arrays: a staged one through its window, the others as
    buffers no window stages; each is then as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      ((h c).2 main_arg12 (by decide)).trans (V_main_arg12 m c),
      ((h c).2 main_arg13 (by decide)).trans (V_main_arg13 m c),
      ((h c).2 main_arg14 (by decide)).trans (V_main_arg14 m c)⟩

/-- So a run to the launch's post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses: each is the whole buffer -/

abbrev rRow : Rect S256x1024 := Rect.unit (s := S256x1024) ![0, 0] S256x1024.size inb_S256x1024_S256x1024_0_0
abbrev rWgt : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in the two output buffers -/

/-- The new hidden state's block: the one full-block store of o · tanh(c'), as a function of the six input blocks. -/
def newH (x0 x1 x2 : Vec F S256x1024 .f32) (x3 x4 : Vec F S4096x1024 .bf16) (x5 : Vec F S1x4096 .f32) : Vec F S256x1024 .f32 :=
  View.canon [⟨rRow, k0_pay3 (View.ld x0 rRow) (View.ld x1 rRow) (View.ld x3 rWgt) (View.ld x4 rWgt) (View.ld x5 rBias) (View.ld x2 rRow)⟩]

/-- The new cell state's block: the one full-block store of f · c + i · g. -/
def newC (x0 x1 x2 : Vec F S256x1024 .f32) (x3 x4 : Vec F S4096x1024 .bf16) (x5 : Vec F S1x4096 .f32) : Vec F S256x1024 .f32 :=
  View.canon [⟨rRow, k0_pay2 (View.ld x0 rRow) (View.ld x1 rRow) (View.ld x3 rWgt) (View.ld x4 rWgt) (View.ld x5 rBias) (View.ld x2 rRow)⟩]

/-- One store through the whole-buffer rectangle covers the buffer. -/
theorem coverRow (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The body on whole buffers — the six inputs' at known contents, the two outputs' at anything — runs to its end
    leaving the inputs as they were and the outputs at `newH`, `newC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (newH x0 x1 x2 x3 x4 x5) ∗ owns (c : Thread nD τ) arg8 fullShare (newC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRow _)
  iexists _; isplitr
  swap; · iexact H7
  ipureintro
  exact View.read_writes_eq_canon _ _ _ (coverRow _)

/-! ## The launch's proof data -/

/-- On core `c`: the arrays as the launch finds them; after the body at point `t` each input buffer at its block and
    the two output buffers at `newH`, `newC` of the point's input blocks; the kernel keeps nothing of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newH (iblk m c 0 t) (iblk m c 1 t) (iblk m c 2 t) (iblk m c 3 t) (iblk m c 4 t) (iblk m c 5 t)
    | ⟨7, _⟩ => newC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = newH (iblk m c 0 t) (iblk m c 1 t) (iblk m c 2 t) (iblk m c 3 t) (iblk m c 4 t) (iblk m c 5 t) := by dsimp only [dats]
theorem after7 (c : Dev nD) (t : Fin cfg0.N) : (dats m 0 c).after 7 t = newC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards each window's array is its contents at the launch
    with the blocks the points wrote back laid over them (nothing, for an input), and every other buffer that
    outlives the launch is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frm

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmulNT.lean ====
/-
  A matrix product of an `[M, K]` array by an `[N, K]` array, contracting the LAST axis of both, read at `(p, q)`:
  the sum over `k` of the left operand at `(p, k)` times the right operand at `(q, k)` — the inner product of row `p`
  of the left operand and row `q` of the right.
-/
import Idealize.ShloMosaic.PureOps.Ideal
import Idealize.ShloMosaic.PureOps.Ideal.Laws
import Idealize.ShloMosaic.Lib.ValueIdx
import proofs.«141358_j47588237639946_2_alg».proof.Proof.LibDotSum

noncomputable section

open scoped BigOperators

namespace Idealize.ShloMosaic.LibMatmulNT

open Idealize.ShloMosaic Idealize.ShloMosaic.ValueIdx

/-- The contraction sum of an `[M, K] × [N, K]` product at `(p, q)`, over the contracted coordinate.  The two facts
    about the free axes (`hl0`, `hr0`: the left operand's row is the result's row, the right operand's row the result's
    column) are read off a program's literal dimension numbers. -/
theorem contr_sum {M K N : Nat} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (x : (⟨2, ![M, K]⟩ : Shape).Idx → EReal) (y : (⟨2, ![N, K]⟩ : Shape).Idx → EReal) (p : Fin M) (q : Fin N) :
    ∑ c : D.contr.Idx, x (D.lhsIdx (ix2 p q) c) * y (D.rhsIdx (ix2 p q) c) = ∑ k : Fin K, x (ix2 p k) * y (ix2 q k) := by
  refine LibDotSum.sum_single D K hr hs x y (ix2 p q) (fun k => x (ix2 p k)) (fun k => y (ix2 q k)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k

/-- A kernel's matrix product into a zero accumulator, at `(p, q)`. -/
theorem matmul_zero_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) :=
  (Ideal.matmul_constant_zero_apply D prec x y (ix2 p q)).trans (contr_sum D hr hs hlc hrc hl0 hr0 x y p q)

/-- The host's `dot_general` of the same shape, at `(p, q)`. -/
theorem dotGeneral_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    Host.dotGeneral D prec x y (ix2 p q) = ∑ k : Fin K, x (ix2 p k) * y (ix2 q k) := by
  simp only [Host.dotGeneral]
  rw [Ideal.dotGeneral_apply]
  exact contr_sum D hr hs hlc hrc hl0 hr0 x y p q

end Idealize.ShloMosaic.LibMatmulNT

end
-- ==== Proof.Spec.lean ====
/-
  The LSTM cell, as one function of its fifteen argument arrays, index by index, on the extended reals.

  For batch row `r` and hidden unit `j`, a gate's pre-activation is
      pre(r, j) = (Σ_k x[r,k] · Wx[j,k] + Σ_k h[r,k] · Wh[j,k]) + b[j],
  the inner products of row `r` of the input and of the previous hidden state with row `j` of the gate's two weight
  matrices, plus the gate's bias.  With σ the logistic function,
      c'[r,j] = σ(pre_f) · c[r,j] + σ(pre_i) · tanh(pre_g),      h'[r,j] = σ(pre_o) · tanh(c'[r,j]).
  Both programs compute exactly these expressions with the sums grouped exactly this way, so no algebraic law of the
  extended reals (and no finiteness of the inputs) is needed to join them.
-/
import Idealize.ShloMosaic.PureOps.Ideal
import Idealize.ShloMosaic.Lib.ValueIdx

noncomputable section

open scoped BigOperators

namespace LstmCell

open Idealize.ShloMosaic Idealize.ShloMosaic.ValueIdx

abbrev Act : Shape := ⟨2, ![4096, 1024]⟩
abbrev Wgt : Shape := ⟨2, ![1024, 1024]⟩
abbrev Bia : Shape := ⟨1, ![1024]⟩

/-- A gate's pre-activation at batch row `r` and hidden unit `j`. -/
def pre (x h : FVec Ideal Act .f32) (wx wh : FVec Ideal Wgt .f32) (b : FVec Ideal Bia .f32) (r : Fin 4096) (j : Fin 1024) : EReal :=
  (∑ k : Fin 1024, x (ix2 r k) * wx (ix2 j k) + ∑ k : Fin 1024, h (ix2 r k) * wh (ix2 j k)) + b (ix1 j)

/-- The new cell state from the forget, input and candidate gates' pre-activations and the old cell state. -/
def cellOf (pf pi pg cOld : EReal) : EReal :=
  Ideal.logistic pf * cOld + Ideal.logistic pi * Ideal.tanh pg

/-- The new hidden state from the output gate's pre-activation and the new cell state. -/
def hiddenOf (po cNew : EReal) : EReal :=
  Ideal.logistic po * Ideal.tanh cNew

/-- The new cell state, as an array. -/
def newCell (x h c : FVec Ideal Act .f32) (wxi whi : FVec Ideal Wgt .f32) (bi : FVec Ideal Bia .f32)
    (wxf whf : FVec Ideal Wgt .f32) (bf : FVec Ideal Bia .f32) (wxg whg : FVec Ideal Wgt .f32) (bg : FVec Ideal Bia .f32) :
    FVec Ideal Act .f32 := fun i =>
  cellOf (pre x h wxf whf bf (i 0) (i 1)) (pre x h wxi whi bi (i 0) (i 1)) (pre x h wxg whg bg (i 0) (i 1)) (c i)

/-- The new hidden state, as an array. -/
def newHidden (x h c : FVec Ideal Act .f32) (wxi whi : FVec Ideal Wgt .f32) (bi : FVec Ideal Bia .f32)
    (wxf whf : FVec Ideal Wgt .f32) (bf : FVec Ideal Bia .f32) (wxg whg : FVec Ideal Wgt .f32) (bg : FVec Ideal Bia .f32)
    (wxo who : FVec Ideal Wgt .f32) (bo : FVec Ideal Bia .f32) : FVec Ideal Act .f32 := fun i =>
  hiddenOf (pre x h wxo who bo (i 0) (i 1)) (newCell x h c wxi whi bi wxf whf bf wxg whg bg i)

end LstmCell

end
-- ==== Proof.PayAt.lean ====
/-
  The body's arithmetic at an index, on the extended reals.

  The body forms one `[256, 4096]` array of pre-activations — the input block times the joined input weights
  (contracting the last axis of both), plus the hidden block times the joined hidden weights, plus the bias row
  broadcast down the rows — and cuts it into four `[256, 1024]` column bands, one per gate, in the order
  input, forget, candidate, output.  Read at row `p` and column `1024·g + q`, the array is gate `g`'s pre-activation
  at `(p, q)`; the two stored values are then the cell and hidden updates of those four numbers.
-/
import proofs.«141358_j47588237639946_2_alg».proof.Proof.Gen.KernelIdeal.Skeleton
import proofs.«141358_j47588237639946_2_alg».proof.Proof.LibMatmulNT
import proofs.«141358_j47588237639946_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The product's left operand keeps the result's row. -/
theorem dot_lhs_row (j : S256x4096.Idx) (q : dot_S256x1024_S4096x1024_S256x4096_1_1_0_0_n_n.contr.Idx) :
    (dot_S256x1024_S4096x1024_S256x4096_1_1_0_0_n_n.lhsIdx j q 0).val = (j 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl

/-- The product's right operand's row is the result's column. -/
theorem dot_rhs_row (j : S256x4096.Idx) (q : dot_S256x1024_S4096x1024_S256x4096_1_1_0_0_n_n.contr.Idx) :
    (dot_S256x1024_S4096x1024_S256x4096_1_1_0_0_n_n.rhsIdx j q 0).val = (j 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl

/-- The bias row broadcast down the rows, at `(p, n)`, is the row's entry `n`. -/
theorem bias_at (x5 : Vec Ideal S1x4096 .f32) (p : Fin 256) (n : Fin 4096) :
    broadcastTo S256x4096 (shapeCast S1x4096 x5 shapeCasts_S1x4096_S1x4096) broadcasts_S1x4096_S256x4096 (ix2 p n) = x5 (ix2 0 n) := by
  rw [shapeCast_self]
  exact broadcastTo_apply x5 broadcasts_S1x4096_S256x4096 (ix2 p n) (ix2 0 n) (fun a => by
    match a with
    | ⟨0, _⟩ => rfl
    | ⟨1, _⟩ => rfl)

/-- The array of pre-activations at `(p, n)`. -/
theorem acc_at (x0 x1 : Vec Ideal S256x1024 .f32) (x3 x4 : Vec Ideal S4096x1024 .bf16) (x5 : Vec Ideal S1x4096 .f32) (p : Fin 256) (n : Fin 4096) :
    k0_pay1 (F := Ideal) x0 x1 x3 x4 x5 (ix2 p n)
      = (∑ k : Fin 1024, x0 (ix2 p k) * x3 (ix2 n k) + ∑ k : Fin 1024, x1 (ix2 p k) * x4 (ix2 n k)) + x5 (ix2 0 n) := by
  unfold k0_pay1
  refine congrArg₂ (· + ·) (congrArg₂ (· + ·) ?_ ?_) (bias_at x5 p n)
  · refine (LibMatmulNT.matmul_zero_apply dot_S256x1024_S4096x1024_S256x4096_1_1_0_0_n_n rfl rfl rfl rfl dot_lhs_row dot_rhs_row none _ _ p n).trans ?_
    rw [shapeCast_self]; rfl
  · refine (LibMatmulNT.matmul_zero_apply dot_S256x1024_S4096x1024_S256x4096_1_1_0_0_n_n rfl rfl rfl rfl dot_lhs_row dot_rhs_row none _ _ p n).trans ?_
    rw [shapeCast_self]; rfl

/-- A gate's column band of the pre-activations, at `(p, q)`: the array at column `off + q`. -/
theorem band_at (off : Nat) (y : FVec Ideal S256x4096 .f32) (h : S256x4096.Slices ![0, off] S256x1024) (p : Fin 256) (q : Fin 1024) (n : Fin 4096)
    (hn : n.val = off + q.val) :
    extractStridedSlice S256x1024 ![0, off] y h (ix2 p q) = y (ix2 p n) :=
  extractStridedSlice_apply ![0, off] y h (ix2 p q) (ix2 p n) (fun a => by
    match a with
    | ⟨0, _⟩ => show p.val = 0 + p.val; omega
    | ⟨1, _⟩ => exact hn)

/-- The pre-activation of the gate whose band starts at column `off`, at `(p, q)`. -/
def gateAt (x0 x1 : Vec Ideal S256x1024 .f32) (x3 x4 : Vec Ideal S4096x1024 .bf16) (x5 : Vec Ideal S1x4096 .f32) (p : Fin 256) (n : Fin 4096) : EReal :=
  (∑ k : Fin 1024, x0 (ix2 p k) * x3 (ix2 n k) + ∑ k : Fin 1024, x1 (ix2 p k) * x4 (ix2 n k)) + x5 (ix2 0 n)

/-- The stored cell block at `(p, q)`. -/
theorem cell_at (x0 x1 x2 : Vec Ideal S256x1024 .f32) (x3 x4 : Vec Ideal S4096x1024 .bf16) (x5 : Vec Ideal S1x4096 .f32) (p : Fin 256) (q : Fin 1024)
    (n0 n1 n2 : Fin 4096) (h0 : n0.val = 0 + q.val) (h1 : n1.val = 1024 + q.val) (h2 : n2.val = 2048 + q.val) :
    k0_pay2 (F := Ideal) x0 x1 x3 x4 x5 x2 (ix2 p q)
      = LstmCell.cellOf (gateAt x0 x1 x3 x4 x5 p n1) (gateAt x0 x1 x3 x4 x5 p n0) (gateAt x0 x1 x3 x4 x5 p n2) (x2 (ix2 p q)) := by
  unfold k0_pay2 LstmCell.cellOf gateAt
  refine congrArg₂ (· + ·) (congrArg₂ (· * ·) (congrArg Ideal.logistic ?_) rfl) (congrArg₂ (· * ·) (congrArg Ideal.logistic ?_) (congrArg Ideal.tanh ?_))
  · exact (band_at 1024 _ _ p q n1 h1).trans (acc_at x0 x1 x3 x4 x5 p n1)
  · exact (band_at 0 _ _ p q n0 h0).trans (acc_at x0 x1 x3 x4 x5 p n0)
  · exact (band_at 2048 _ _ p q n2 h2).trans (acc_at x0 x1 x3 x4 x5 p n2)

/-- The stored hidden block at `(p, q)`. -/
theorem hidden_at (x0 x1 x2 : Vec Ideal S256x1024 .f32) (x3 x4 : Vec Ideal S4096x1024 .bf16) (x5 : Vec Ideal S1x4096 .f32) (p : Fin 256) (q : Fin 1024)
    (n0 n1 n2 n3 : Fin 4096) (h0 : n0.val = 0 + q.val) (h1 : n1.val = 1024 + q.val) (h2 : n2.val = 2048 + q.val) (h3 : n3.val = 3072 + q.val) :
    k0_pay3 (F := Ideal) x0 x1 x3 x4 x5 x2 (ix2 p q)
      = LstmCell.hiddenOf (gateAt x0 x1 x3 x4 x5 p n3)
          (LstmCell.cellOf (gateAt x0 x1 x3 x4 x5 p n1) (gateAt x0 x1 x3 x4 x5 p n0) (gateAt x0 x1 x3 x4 x5 p n2) (x2 (ix2 p q))) := by
  unfold k0_pay3 LstmCell.hiddenOf
  refine congrArg₂ (· * ·) (congrArg Ideal.logistic ?_) (congrArg Ideal.tanh (cell_at x0 x1 x2 x3 x4 x5 p q n0 n1 n2 h0 h1 h2))
  exact (band_at 3072 _ _ p q n3 h3).trans (acc_at x0 x1 x3 x4 x5 p n3)

end Cert.KernelIdeal.PayAt

end
-- ==== Proof.LibConcatFour.lean ====
/-
  Four equal pieces joined along the leading axis, read at an index: row `1024·g + j` of the join of four
  `[1024, 1024]` matrices is row `j` of piece `g`, and entry `1024·g + j` of the join of four `[1024]` vectors is
  entry `j` of piece `g`.
-/
import Idealize.ShloMosaic.Lib.Pipeline.Value
import Idealize.ShloMosaic.Lib.ValueIdx

noncomputable section

namespace Idealize.ShloMosaic.LibConcatFour

open Idealize.ShloMosaic Idealize.ShloMosaic.ValueIdx

/-- Piece `g` of four. -/
def pick {β : Type} (a0 a1 a2 a3 : β) : Fin 4 → β
  | ⟨0, _⟩ => a0
  | ⟨1, _⟩ => a1
  | ⟨2, _⟩ => a2
  | ⟨3, _⟩ => a3

/-- Four `[1024, 1024]` matrices joined along axis 0, read at `(1024·g + j, k)`: piece `g` at `(j, k)`. -/
theorem concat_mat {α : Type} (w0 w1 w2 w3 : (⟨2, ![1024, 1024]⟩ : Shape).Idx → α)
    (h : Shape.Concatenates (([⟨⟨2, ![1024, 1024]⟩, w0⟩, ⟨⟨2, ![1024, 1024]⟩, w1⟩, ⟨⟨2, ![1024, 1024]⟩, w2⟩, ⟨⟨2, ![1024, 1024]⟩, w3⟩] :
      List ((s : Shape) × (s.Idx → α))).map (·.1)) ⟨2, ![4096, 1024]⟩ 0)
    (g : Fin 4) (j k : Fin 1024) (n : Fin 4096) (hn : n.val = 1024 * g.val + j.val) :
    concatenate ⟨2, ![4096, 1024]⟩ 0 [⟨⟨2, ![1024, 1024]⟩, w0⟩, ⟨⟨2, ![1024, 1024]⟩, w1⟩, ⟨⟨2, ![1024, 1024]⟩, w2⟩, ⟨⟨2, ![1024, 1024]⟩, w3⟩] h (ix2 n k)
      = pick w0 w1 w2 w3 g (ix2 j k) := by
  have hi : ∀ b : Fin 2, b ≠ 0 → ((ix2 j k : (⟨2, ![1024, 1024]⟩ : Shape).Idx) b).val = ((ix2 n k : (⟨2, ![4096, 1024]⟩ : Shape).Idx) b).val := fun b hb => by
    match b with
    | ⟨0, _⟩ => exact absurd rfl hb
    | ⟨1, _⟩ => rfl
  match g with
  | ⟨0, _⟩ => exact concatenate_apply_piece 0 _ h (ix2 n k) 0 (by simp) _ w0 rfl rfl 0 rfl (ix2 j k) hi (by show 0 + j.val = n.val; simp at hn; omega)
  | ⟨1, _⟩ => exact concatenate_apply_piece 0 _ h (ix2 n k) 1 (by simp) _ w1 rfl rfl 1024 rfl (ix2 j k) hi (by show 1024 + j.val = n.val; simp at hn; omega)
  | ⟨2, _⟩ => exact concatenate_apply_piece 0 _ h (ix2 n k) 2 (by simp) _ w2 rfl rfl 2048 rfl (ix2 j k) hi (by show 2048 + j.val = n.val; simp at hn; omega)
  | ⟨3, _⟩ => exact concatenate_apply_piece 0 _ h (ix2 n k) 3 (by simp) _ w3 rfl rfl 3072 rfl (ix2 j k) hi (by show 3072 + j.val = n.val; simp at hn; omega)

/-- Four `[1024]` vectors joined, read at `1024·g + j`: piece `g` at `j`. -/
theorem concat_vec {α : Type} (b0 b1 b2 b3 : (⟨1, ![1024]⟩ : Shape).Idx → α)
    (h : Shape.Concatenates (([⟨⟨1, ![1024]⟩, b0⟩, ⟨⟨1, ![1024]⟩, b1⟩, ⟨⟨1, ![1024]⟩, b2⟩, ⟨⟨1, ![1024]⟩, b3⟩] :
      List ((s : Shape) × (s.Idx → α))).map (·.1)) ⟨1, ![4096]⟩ 0)
    (g : Fin 4) (j : Fin 1024) (n : Fin 4096) (hn : n.val = 1024 * g.val + j.val) :
    concatenate ⟨1, ![4096]⟩ 0 [⟨⟨1, ![1024]⟩, b0⟩, ⟨⟨1, ![1024]⟩, b1⟩, ⟨⟨1, ![1024]⟩, b2⟩, ⟨⟨1, ![1024]⟩, b3⟩] h (ix1 n)
      = pick b0 b1 b2 b3 g (ix1 j) := by
  have hi : ∀ b : Fin 1, b ≠ 0 → ((ix1 j : (⟨1, ![1024]⟩ : Shape).Idx) b).val = ((ix1 n : (⟨1, ![4096]⟩ : Shape).Idx) b).val := fun b hb => by
    match b with
    | ⟨0, _⟩ => exact absurd rfl hb
  match g with
  | ⟨0, _⟩ => exact concatenate_apply_piece 0 _ h (ix1 n) 0 (by simp) _ b0 rfl rfl 0 rfl (ix1 j) hi (by show 0 + j.val = n.val; simp at hn; omega)
  | ⟨1, _⟩ => exact concatenate_apply_piece 0 _ h (ix1 n) 1 (by simp) _ b1 rfl rfl 1024 rfl (ix1 j) hi (by show 1024 + j.val = n.val; simp at hn; omega)
  | ⟨2, _⟩ => exact concatenate_apply_piece 0 _ h (ix1 n) 2 (by simp) _ b2 rfl rfl 2048 rfl (ix1 j) hi (by show 2048 + j.val = n.val; simp at hn; omega)
  | ⟨3, _⟩ => exact concatenate_apply_piece 0 _ h (ix1 n) 3 (by simp) _ b3 rfl rfl 3072 rfl (ix1 j) hi (by show 3072 + j.val = n.val; simp at hn; omega)

end Idealize.ShloMosaic.LibConcatFour

end
-- ==== Proof.KIValue.lean ====
/-
  What the idealized kernel's two result arrays hold after the run: the LSTM cell's new hidden and cell states of
  the fifteen argument arrays.

  Point `t` of the grid writes back rows 256·t … 256·t+255 of each result.  Its input blocks are the same rows of
  x, h_prev and c_prev, and (whole) the joined weight matrices and bias row; row `1024·g + j` of a joined matrix is
  row `j` of gate `g`'s matrix.  So the block it writes is that block of the cell function of the arguments, and
  the sixteen blocks cover the array.
-/
import proofs.«141358_j47588237639946_2_alg».proof.Proof.KIFrame
import proofs.«141358_j47588237639946_2_alg».proof.Proof.PayAt
import proofs.«141358_j47588237639946_2_alg».proof.Proof.LibConcatFour
import proofs.«141358_j47588237639946_2_alg».proof.Proof.Spec
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Frm Cert.KernelIdeal.PayAt
open Idealize.ShloMosaic Idealize.ShloMosaic.TcCoe Idealize.SL.Sem Idealize.ShloMosaic.ValueIdx
open Idealize.ShloMosaic.LibConcatFour
open Idealize.ShloMosaic.Pipeline (Dat)

variable (m : (ℓ : Loc nD τ sig) → Buf (Elt Ideal) ℓ) (ρ : Dev nD → PrngReg)

/-- Argument `k` as launched, on core `c`. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)

/-! ## The joined arrays the launch finds -/

theorem V_wx (c : Dev nD) : (V m c main_v1 : S4096x1024.Idx → EReal)
    = truncf (F := Ideal) .bf16 (concatenate S4096x1024 0 [⟨S1024x1024, A3 m c⟩, ⟨S1024x1024, A6 m c⟩, ⟨S1024x1024, A9 m c⟩, ⟨S1024x1024, A12 m c⟩]
        concatenates_S1024x1024_S1024x1024_S1024x1024_S1024x1024_S4096x1024_d0) bitsLt_bf16_f32 := by
  dsimp only [V, hostOps0]; after_results; rfl

theorem V_wh (c : Dev nD) : (V m c main_v3 : S4096x1024.Idx → EReal)
    = truncf (F := Ideal) .bf16 (concatenate S4096x1024 0 [⟨S1024x1024, A4 m c⟩, ⟨S1024x1024, A7 m c⟩, ⟨S1024x1024, A10 m c⟩, ⟨S1024x1024, A13 m c⟩]
        concatenates_S1024x1024_S1024x1024_S1024x1024_S1024x1024_S4096x1024_d0) bitsLt_bf16_f32 := by
  dsimp only [V, hostOps0]; after_results; rfl

theorem V_bias (c : Dev nD) : (V m c main_v5 : S1x4096.Idx → EReal)
    = shapeCast S1x4096 (concatenate S4096 0 [⟨S1024, A5 m c⟩, ⟨S1024, A8 m c⟩, ⟨S1024, A11 m c⟩, ⟨S1024, A14 m c⟩]
        concatenates_S1024_S1024_S1024_S1024_S4096_d0) shapeCasts_S4096_S1x4096 := by
  dsimp only [V, hostOps0]; after_results; rfl

/-! ## The blocks' positions -/

/-- Over the sixteen points: the three activation windows and the two result windows move down one block of 256
    rows per point; the weight and bias windows stay on the whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := by
  have h : t.val < grid0.N := t.isLt
  rw [N_0] at h; exact h

/-- The array row that row `p` of point `t`'s block is. -/
def rowOf (t : Fin cfg0.N) (p : Fin 256) : Fin 4096 := ⟨256 * t.val + p.val, by have := t_lt t; have := p.isLt; omega⟩

theorem emb_rows0 (t : Fin cfg0.N) (p : Fin 256) (k : Fin 1024) :
    ((cfg0.win 0).blk t).view.emb (ix2 p k) = ix2 (rowOf t p) k := by
  have e := idx_facts t
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega
theorem emb_rows1 (t : Fin cfg0.N) (p : Fin 256) (k : Fin 1024) :
    ((cfg0.win 1).blk t).view.emb (ix2 p k) = ix2 (rowOf t p) k := by
  have e := idx_facts t
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega
theorem emb_rows2 (t : Fin cfg0.N) (p : Fin 256) (k : Fin 1024) :
    ((cfg0.win 2).blk t).view.emb (ix2 p k) = ix2 (rowOf t p) k := by
  have e := idx_facts t
  funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega
theorem emb_rows6 (t : Fin cfg0.N) (p : Fin 256) (k : Fin 1024) :
    ((cfg0.win 6).blk t).view.emb (ix2 p k) = ix2 (rowOf t p) k := by
  have e := idx_facts t
  funext a; apply Fin.ext
  match a with
  | ⟨0, _⟩ => show win0_6.index t (0 : Fin 2) * 256 + 1 * p.val = 256 * t.val + p.val; omega
  | ⟨1, _⟩ => show win0_6.index t (1 : Fin 2) * 1024 + 1 * k.val = k.val; omega
theorem emb_rows7 (t : Fin cfg0.N) (p : Fin 256) (k : Fin 1024) :
    ((cfg0.win 7).blk t).view.emb (ix2 p k) = ix2 (rowOf t p) k := by
  have e := idx_facts t
  funext a; apply Fin.ext
  match a with
  | ⟨0, _⟩ => show win0_7.index t (0 : Fin 2) * 256 + 1 * p.val = 256 * t.val + p.val; omega
  | ⟨1, _⟩ => show win0_7.index t (1 : Fin 2) * 1024 + 1 * k.val = k.val; omega

theorem emb_whole3 (t : Fin cfg0.N) (n : Fin 4096) (k : Fin 1024) :
    ((cfg0.win 3).blk t).view.emb (ix2 n k) = ix2 n k := by
  have e := idx_facts t
  funext a; apply Fin.ext
  match a with
  | ⟨0, _⟩ => show win0_3.index t (0 : Fin 2) * 4096 + 1 * n.val = n.val; omega
  | ⟨1, _⟩ => show win0_3.index t (1 : Fin 2) * 1024 + 1 * k.val = k.val; omega
theorem emb_whole4 (t : Fin cfg0.N) (n : Fin 4096) (k : Fin 1024) :
    ((cfg0.win 4).blk t).view.emb (ix2 n k) = ix2 n k := by
  have e := idx_facts t
  funext a; apply Fin.ext
  match a with
  | ⟨0, _⟩ => show win0_4.index t (0 : Fin 2) * 4096 + 1 * n.val = n.val; omega
  | ⟨1, _⟩ => show win0_4.index t (1 : Fin 2) * 1024 + 1 * k.val = k.val; omega

theorem emb_whole5 (t : Fin cfg0.N) (n : Fin 4096) :
    ((cfg0.win 5).blk t).view.emb (ix2 (0 : Fin 1) n) = ix2 (0 : Fin 1) n := by
  have e := idx_facts t
  funext a; apply Fin.ext
  match a with
  | ⟨0, _⟩ => show win0_5.index t (0 : Fin 2) * 1 + 1 * 0 = 0; omega
  | ⟨1, _⟩ => show win0_5.index t (1 : Fin 2) * 4096 + 1 * n.val = n.val; omega

/-! ## The input blocks at an index -/

theorem x_at (c : Dev nD) (t : Fin cfg0.N) (p : Fin 256) (k : Fin 1024) : iblk m c 0 t (ix2 p k) = A0 m c (ix2 (rowOf t p) k) := by
  show V m c main_arg0 (((cfg0.win 0).blk t).view.emb (ix2 p k)) = _
  rw [emb_rows0, V_main_arg0]
theorem h_at (c : Dev nD) (t : Fin cfg0.N) (p : Fin 256) (k : Fin 1024) : iblk m c 1 t (ix2 p k) = A1 m c (ix2 (rowOf t p) k) := by
  show V m c main_arg1 (((cfg0.win 1).blk t).view.emb (ix2 p k)) = _
  rw [emb_rows1, V_main_arg1]
theorem c_at (c : Dev nD) (t : Fin cfg0.N) (p : Fin 256) (k : Fin 1024) : iblk m c 2 t (ix2 p k) = A2 m c (ix2 (rowOf t p) k) := by
  show V m c main_arg2 (((cfg0.win 2).blk t).view.emb (ix2 p k)) = _
  rw [emb_rows2, V_main_arg2]

/-- Row `1024·g + j` of the joined input weights is row `j` of gate `g`'s. -/
theorem wx_at (c : Dev nD) (t : Fin cfg0.N) (g : Fin 4) (j k : Fin 1024) (n : Fin 4096) (hn : n.val = 1024 * g.val + j.val) :
    iblk m c 3 t (ix2 n k) = pick (A3 m c) (A6 m c) (A9 m c) (A12 m c) g (ix2 j k) := by
  show V m c main_v1 (((cfg0.win 3).blk t).view.emb (ix2 n k)) = _
  rw [emb_whole3, V_wx]
  exact concat_mat (A3 m c) (A6 m c) (A9 m c) (A12 m c) concatenates_S1024x1024_S1024x1024_S1024x1024_S1024x1024_S4096x1024_d0 g j k n hn

theorem wh_at (c : Dev nD) (t : Fin cfg0.N) (g : Fin 4) (j k : Fin 1024) (n : Fin 4096) (hn : n.val = 1024 * g.val + j.val) :
    iblk m c 4 t (ix2 n k) = pick (A4 m c) (A7 m c) (A10 m c) (A13 m c) g (ix2 j k) := by
  show V m c main_v3 (((cfg0.win 4).blk t).view.emb (ix2 n k)) = _
  rw [emb_whole4, V_wh]
  exact concat_mat (A4 m c) (A7 m c) (A10 m c) (A13 m c) concatenates_S1024x1024_S1024x1024_S1024x1024_S1024x1024_S4096x1024_d0 g j k n hn

theorem b_at (c : Dev nD) (t : Fin cfg0.N) (g : Fin 4) (j : Fin 1024) (n : Fin 4096) (hn : n.val = 1024 * g.val + j.val) :
    iblk m c 5 t (ix2 (0 : Fin 1) n) = pick (A5 m c) (A8 m c) (A11 m c) (A14 m c) g (ix1 j) := by
  show V m c main_v5 (((cfg0.win 5).blk t).view.emb (ix2 (0 : Fin 1) n)) = _
  rw [emb_whole5, V_bias]
  refine (shapeCast_apply _ shapeCasts_S4096_S1x4096 (ix2 (0 : Fin 1) n) (ix1 n) (by
    rw [Shape.rowMajor_val_one, Shape.rowMajor_val_two]
    show n.val = 0 * 4096 + n.val
    omega)).trans ?_
  exact concat_vec (A5 m c) (A8 m c) (A11 m c) (A14 m c) concatenates_S1024_S1024_S1024_S1024_S4096_d0 g j n hn

/-- Gate `g`'s pre-activation as the body forms it at point `t` is the cell's, at the block's array row. -/
theorem gate_eq (c : Dev nD) (t : Fin cfg0.N) (g : Fin 4) (p : Fin 256) (q : Fin 1024) (n : Fin 4096) (hn : n.val = 1024 * g.val + q.val) :
    gateAt (iblk m c 0 t) (iblk m c 1 t) (iblk m c 3 t) (iblk m c 4 t) (iblk m c 5 t) p n
      = LstmCell.pre (A0 m c) (A1 m c) (pick (A3 m c) (A6 m c) (A9 m c) (A12 m c) g) (pick (A4 m c) (A7 m c) (A10 m c) (A13 m c) g)
          (pick (A5 m c) (A8 m c) (A11 m c) (A14 m c) g) (rowOf t p) q := by
  unfold gateAt LstmCell.pre
  refine congrArg₂ (· + ·) (congrArg₂ (· + ·) (Finset.sum_congr rfl fun k _ => ?_) (Finset.sum_congr rfl fun k _ => ?_)) (b_at m c t g q n hn)
  · rw [x_at, wx_at m c t g q k n hn]
  · rw [h_at, wh_at m c t g q k n hn]

/-! ## What each point writes back -/

/-- The two result arrays, as functions of the fifteen arguments: gates in the order input (arguments 3–5),
    forget (6–8), candidate (9–11), output (12–14). -/
def cellArr (c : Dev nD) : S4096x1024.Idx → EReal :=
  LstmCell.newCell (A0 m c) (A1 m c) (A2 m c) (A3 m c) (A4 m c) (A5 m c) (A6 m c) (A7 m c) (A8 m c) (A9 m c) (A10 m c) (A11 m c)

def hiddenArr (c : Dev nD) : S4096x1024.Idx → EReal :=
  LstmCell.newHidden (A0 m c) (A1 m c) (A2 m c) (A3 m c) (A4 m c) (A5 m c) (A6 m c) (A7 m c) (A8 m c) (A9 m c) (A10 m c) (A11 m c)
    (A12 m c) (A13 m c) (A14 m c)

theorem hz : (![0, 0] : Fin 2 → Nat) = fun _ => 0 := funext fun a => by fin_cases a <;> rfl

/-- Column `1024·g + q` of the pre-activation array: gate `g`'s column `q`. -/
def col (g : Fin 4) (q : Fin 1024) : Fin 4096 := ⟨1024 * g.val + q.val, by have := g.isLt; have := q.isLt; omega⟩

/-- The cell block the body stores at point `t`, at `(p, q)`: the cell function at the block's array row. -/
theorem cell_blk (c : Dev nD) (t : Fin cfg0.N) (p : Fin 256) (q : Fin 1024) :
    k0_pay2 (F := Ideal) (iblk m c 0 t) (iblk m c 1 t) (iblk m c 3 t) (iblk m c 4 t) (iblk m c 5 t) (iblk m c 2 t) (ix2 p q)
      = cellArr m c (ix2 (rowOf t p) q) := by
  refine (cell_at (iblk m c 0 t) (iblk m c 1 t) (iblk m c 2 t) (iblk m c 3 t) (iblk m c 4 t) (iblk m c 5 t) p q
    (col 0 q) (col 1 q) (col 2 q) (by show 1024 * 0 + q.val = 0 + q.val; omega) (by show 1024 * 1 + q.val = 1024 + q.val; omega)
    (by show 1024 * 2 + q.val = 2048 + q.val; omega)).trans ?_
  rw [gate_eq m c t 1 p q (col 1 q) rfl, gate_eq m c t 0 p q (col 0 q) rfl, gate_eq m c t 2 p q (col 2 q) rfl, c_at]
  rfl

/-- The hidden block the body stores at point `t`, at `(p, q)`. -/
theorem hidden_blk (c : Dev nD) (t : Fin cfg0.N) (p : Fin 256) (q : Fin 1024) :
    k0_pay3 (F := Ideal) (iblk m c 0 t) (iblk m c 1 t) (iblk m c 3 t) (iblk m c 4 t) (iblk m c 5 t) (iblk m c 2 t) (ix2 p q)
      = hiddenArr m c (ix2 (rowOf t p) q) := by
  refine (hidden_at (iblk m c 0 t) (iblk m c 1 t) (iblk m c 2 t) (iblk m c 3 t) (iblk m c 4 t) (iblk m c 5 t) p q
    (col 0 q) (col 1 q) (col 2 q) (col 3 q) (by show 1024 * 0 + q.val = 0 + q.val; omega) (by show 1024 * 1 + q.val = 1024 + q.val; omega)
    (by show 1024 * 2 + q.val = 2048 + q.val; omega) (by show 1024 * 3 + q.val = 3072 + q.val; omega)).trans ?_
  rw [gate_eq m c t 3 p q (col 3 q) rfl, gate_eq m c t 1 p q (col 1 q) rfl, gate_eq m c t 0 p q (col 0 q) rfl, gate_eq m c t 2 p q (col 2 q) rfl, c_at]
  rfl

/-- Point `t` writes back block `t` of the new hidden state. -/
theorem flushedH_eq (c : Dev nD) (t : Fin cfg0.N) :
    (dats m 0 c).flushed 6 t = ((cfg0.win 6).blk t).view.read (Elt Ideal) (hiddenArr m c) := by
  show (cfg0.win 6).cut (grid0.coords t) ((dats m 0 c).after 6 t) = _
  rw [after6]
  unfold newH
  rw [View.canon_unit_zero hz]
  simp only [View.ld_unit_zero (S := S256x1024) hz, View.ld_unit_zero (S := S4096x1024) hz, View.ld_unit_zero (S := S1x4096) hz]
  funext y
  obtain ⟨p, q, rfl⟩ : ∃ (p : Fin 256) (q : Fin 1024), y = ix2 p q := ⟨y 0, y 1, eq_ix2 y⟩
  show k0_pay3 (F := Ideal) (iblk m c 0 t) (iblk m c 1 t) (iblk m c 3 t) (iblk m c 4 t) (iblk m c 5 t) (iblk m c 2 t) (ix2 p q)
    = hiddenArr m c (((cfg0.win 6).blk t).view.emb (ix2 p q))
  rw [emb_rows6]
  exact hidden_blk m c t p q

/-- Point `t` writes back block `t` of the new cell state. -/
theorem flushedC_eq (c : Dev nD) (t : Fin cfg0.N) :
    (dats m 0 c).flushed 7 t = ((cfg0.win 7).blk t).view.read (Elt Ideal) (cellArr m c) := by
  show (cfg0.win 7).cut (grid0.coords t) ((dats m 0 c).after 7 t) = _
  rw [after7]
  unfold newC
  rw [View.canon_unit_zero hz]
  simp only [View.ld_unit_zero (S := S256x1024) hz, View.ld_unit_zero (S := S4096x1024) hz, View.ld_unit_zero (S := S1x4096) hz]
  funext y
  obtain ⟨p, q, rfl⟩ : ∃ (p : Fin 256) (q : Fin 1024), y = ix2 p q := ⟨y 0, y 1, eq_ix2 y⟩
  show k0_pay2 (F := Ideal) (iblk m c 0 t) (iblk m c 1 t) (iblk m c 3 t) (iblk m c 4 t) (iblk m c 5 t) (iblk m c 2 t) (ix2 p q)
    = cellArr m c (((cfg0.win 7).blk t).view.emb (ix2 p q))
  rw [emb_rows7]
  exact cell_blk m c t p q

/-! ## The sixteen blocks cover each result array -/

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Row `r` is in the block of point `r / 256`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have ht : (i 0).val / 256 < grid0.N := by rw [N_0]; omega
  obtain ⟨t, htv⟩ : ∃ t : Fin cfg0.N, t.val = (i 0).val / 256 := ⟨⟨_, ht⟩, rfl⟩
  refine ⟨t, flush0_6 t, ?_⟩
  rw [mem_blk6]
  obtain ⟨-, -, -, -, -, -, -, -, -, -, -, -, e60, e61, e70, e71⟩ := idx_facts t
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1024 ≤ (i 1).val ∧ (i 1).val < win0_6.index t (1 : Fin 2) * 1024 + 1024
    omega

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Row `r` is in the block of point `r / 256`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have ht : (i 0).val / 256 < grid0.N := by rw [N_0]; omega
  obtain ⟨t, htv⟩ : ∃ t : Fin cfg0.N, t.val = (i 0).val / 256 := ⟨⟨_, ht⟩, rfl⟩
  refine ⟨t, flush0_7 t, ?_⟩
  rw [mem_blk7]
  obtain ⟨-, -, -, -, -, -, -, -, -, -, -, -, e60, e61, e70, e71⟩ := idx_facts t
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

/-! ## The arrays after the run -/

theorem finalH (c : Dev nD) : (dats m 0 c).arrAt 6 cfg0.N = hiddenArr m c :=
  (dats m 0 c).arrAt_eq_of_cover 6 (hiddenArr m c) (fun t _ => flushedH_eq m c t) cover6

theorem finalC (c : Dev nD) : (dats m 0 c).arrAt 7 cfg0.N = cellArr m c :=
  (dats m 0 c).arrAt_eq_of_cover 7 (cellArr m c) (fun t _ => flushedC_eq m c t) cover7

/-- The idealized kernel's run: every weakly fair execution terminates with the two results at the cell's new hidden and
    cell states of the arguments, and the arguments unchanged. -/
theorem run : θ_run defs (onTc (τ := τ) (main (F := Ideal))) ⟨m, fun _ => 0, ρ⟩ fun r => ∀ c : Dev nD,
      r.2.mem ((c.tc : Thread nD τ).loc main_v6_0) = hiddenArr m c
      ∧ r.2.mem ((c.tc : Thread nD τ).loc main_v6_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (finalH m c), ((h c).1 7).trans (finalC m c),
      args_kept m (dats m) (A_eq m) r h c⟩)
    (run_main m ρ)

end Cert.KernelIdeal.Val

end
-- ==== Proof.RefValue.lean ====
/-
  The reference, read index by index: its two results are the LSTM cell's new hidden and cell states of its
  arguments.

  The reference multiplies by the TRANSPOSED weight matrices, so its product at `(r, j)` pairs row `r` of the
  activations with row `j` of the untransposed matrix — the inner product the cell's pre-activation names; it spells
  each logistic as `1 / (1 + exp (−z))`, which on the extended reals is the logistic function itself.
-/
import proofs.«141358_j47588237639946_2_alg».proof.Proof.Gen.ReferenceIdeal.Read
import proofs.«141358_j47588237639946_2_alg».proof.Proof.Spec
import Idealize.ShloMosaic.Lib.IdealHost
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The reference's pre-activation of gate `i` at `(r, j)`. -/
theorem pre_i (x0 x1 : FVec Ideal S4096x1024 .f32) (x3 x4 : FVec Ideal S1024x1024 .f32) (x5 : FVec Ideal S1024 .f32) (r : Fin 4096) (j : Fin 1024) :
    Read.val_main_v7 (F := Ideal) x0 x1 x3 x4 x5 (ix2 r j) = LstmCell.pre x0 x1 x3 x4 x5 r j := by
  rw [Read.val_main_v7_apply, Read.val_main_v4_apply, Read.val_main_v1_apply, Read.val_main_v3_apply, Read.val_main_v6_apply, Read.val_main_v5_apply]
  simp only [Read.val_main_v0_apply, Read.val_main_v2_apply]
  unfold LstmCell.pre
  have el : ∀ k : Fin 1024, Read.lidx_main_v1 (ix2 r j) k = ix2 r k := fun k => funext fun a => Fin.ext (by
    match a with
    | ⟨0, _⟩ => rfl
    | ⟨1, _⟩ => rfl)
  have el' : ∀ k : Fin 1024, Read.lidx_main_v3 (ix2 r j) k = ix2 r k := fun k => funext fun a => Fin.ext (by
    match a with
    | ⟨0, _⟩ => rfl
    | ⟨1, _⟩ => rfl)
  have er : ∀ k : Fin 1024, Read.idx_main_v0 (Read.ridx_main_v1 (ix2 r j) k) = ix2 j k := fun k => funext fun a => Fin.ext (by
    match a with
    | ⟨0, _⟩ => rfl
    | ⟨1, _⟩ => rfl)
  have er' : ∀ k : Fin 1024, Read.idx_main_v2 (Read.ridx_main_v3 (ix2 r j) k) = ix2 j k := fun k => funext fun a => Fin.ext (by
    match a with
    | ⟨0, _⟩ => rfl
    | ⟨1, _⟩ => rfl)
  have eb : Read.idx_main_v5 (Read.idx_main_v6 (ix2 r j)) = ix1 j := funext fun a => Fin.ext (by
    match a with
    | ⟨0, _⟩ => rfl)
  simp only [el, el', er, er', eb]
  rfl

/-- The reference's pre-activation of gate `f` at `(r, j)`. -/
theorem pre_f (x0 x1 : FVec Ideal S4096x1024 .f32) (x6 x7 : FVec Ideal S1024x1024 .f32) (x8 : FVec Ideal S1024 .f32) (r : Fin 4096) (j : Fin 1024) :
    Read.val_main_v21 (F := Ideal) x0 x1 x6 x7 x8 (ix2 r j) = LstmCell.pre x0 x1 x6 x7 x8 r j := by
  rw [Read.val_main_v21_apply, Read.val_main_v18_apply, Read.val_main_v15_apply, Read.val_main_v17_apply, Read.val_main_v20_apply, Read.val_main_v19_apply]
  simp only [Read.val_main_v14_apply, Read.val_main_v16_apply]
  unfold LstmCell.pre
  have el : ∀ k : Fin 1024, Read.lidx_main_v15 (ix2 r j) k = ix2 r k := fun k => funext fun a => Fin.ext (by
    match a with
    | ⟨0, _⟩ => rfl
    | ⟨1, _⟩ => rfl)
  have el' : ∀ k : Fin 1024, Read.lidx_main_v17 (ix2 r j) k = ix2 r k := fun k => funext fun a => Fin.ext (by
    match a with
    | ⟨0, _⟩ => rfl
    | ⟨1, _⟩ => rfl)
  have er : ∀ k : Fin 1024, Read.idx_main_v14 (Read.ridx_main_v15 (ix2 r j) k) = ix2 j k := fun k => funext fun a => Fin.ext (by
    match a with
    | ⟨0, _⟩ => rfl
    | ⟨1, _⟩ => rfl)
  have er' : ∀ k : Fin 1024, Read.idx_main_v16 (Read.ridx_main_v17 (ix2 r j) k) = ix2 j k := fun k => funext fun a => Fin.ext (by
    match a with
    | ⟨0, _⟩ => rfl
    | ⟨1, _⟩ => rfl)
  have eb : Read.idx_main_v19 (Read.idx_main_v20 (ix2 r j)) = ix1 j := funext fun a => Fin.ext (by
    match a with
    | ⟨0, _⟩ => rfl)
  simp only [el, el', er, er', eb]
  rfl

/-- The reference's pre-activation of gate `g` at `(r, j)`. -/
theorem pre_g (x0 x1 : FVec Ideal S4096x1024 .f32) (x9 x10 : FVec Ideal S1024x1024 .f32) (x11 : FVec Ideal S1024 .f32) (r : Fin 4096) (j : Fin 1024) :
    Read.val_main_v35 (F := Ideal) x0 x1 x9 x10 x11 (ix2 r j) = LstmCell.pre x0 x1 x9 x10 x11 r j := by
  rw [Read.val_main_v35_apply, Read.val_main_v32_apply, Read.val_main_v29_apply, Read.val_main_v31_apply, Read.val_main_v34_apply, Read.val_main_v33_apply]
  simp only [Read.val_main_v28_apply, Read.val_main_v30_apply]
  unfold LstmCell.pre
  have el : ∀ k : Fin 1024, Read.lidx_main_v29 (ix2 r j) k = ix2 r k := fun k => funext fun a => Fin.ext (by
    match a with
    | ⟨0, _⟩ => rfl
    | ⟨1, _⟩ => rfl)
  have el' : ∀ k : Fin 1024, Read.lidx_main_v31 (ix2 r j) k = ix2 r k := fun k => funext fun a => Fin.ext (by
    match a with
    | ⟨0, _⟩ => rfl
    | ⟨1, _⟩ => rfl)
  have er : ∀ k : Fin 1024, Read.idx_main_v28 (Read.ridx_main_v29 (ix2 r j) k) = ix2 j k := fun k => funext fun a => Fin.ext (by
    match a with
    | ⟨0, _⟩ => rfl
    | ⟨1, _⟩ => rfl)
  have er' : ∀ k : Fin 1024, Read.idx_main_v30 (Read.ridx_main_v31 (ix2 r j) k) = ix2 j k := fun k => funext fun a => Fin.ext (by
    match a with
    | ⟨0, _⟩ => rfl
    | ⟨1, _⟩ => rfl)
  have eb : Read.idx_main_v33 (Read.idx_main_v34 (ix2 r j)) = ix1 j := funext fun a => Fin.ext (by
    match a with
    | ⟨0, _⟩ => rfl)
  simp only [el, el', er, er', eb]
  rfl

/-- The reference's pre-activation of gate `o` at `(r, j)`. -/
theorem pre_o (x0 x1 : FVec Ideal S4096x1024 .f32) (x12 x13 : FVec Ideal S1024x1024 .f32) (x14 : FVec Ideal S1024 .f32) (r : Fin 4096) (j : Fin 1024) :
    Read.val_main_v44 (F := Ideal) x0 x1 x12 x13 x14 (ix2 r j) = LstmCell.pre x0 x1 x12 x13 x14 r j := by
  rw [Read.val_main_v44_apply, Read.val_main_v41_apply, Read.val_main_v38_apply, Read.val_main_v40_apply, Read.val_main_v43_apply, Read.val_main_v42_apply]
  simp only [Read.val_main_v37_apply, Read.val_main_v39_apply]
  unfold LstmCell.pre
  have el : ∀ k : Fin 1024, Read.lidx_main_v38 (ix2 r j) k = ix2 r k := fun k => funext fun a => Fin.ext (by
    match a with
    | ⟨0, _⟩ => rfl
    | ⟨1, _⟩ => rfl)
  have el' : ∀ k : Fin 1024, Read.lidx_main_v40 (ix2 r j) k = ix2 r k := fun k => funext fun a => Fin.ext (by
    match a with
    | ⟨0, _⟩ => rfl
    | ⟨1, _⟩ => rfl)
  have er : ∀ k : Fin 1024, Read.idx_main_v37 (Read.ridx_main_v38 (ix2 r j) k) = ix2 j k := fun k => funext fun a => Fin.ext (by
    match a with
    | ⟨0, _⟩ => rfl
    | ⟨1, _⟩ => rfl)
  have er' : ∀ k : Fin 1024, Read.idx_main_v39 (Read.ridx_main_v40 (ix2 r j) k) = ix2 j k := fun k => funext fun a => Fin.ext (by
    match a with
    | ⟨0, _⟩ => rfl
    | ⟨1, _⟩ => rfl)
  have eb : Read.idx_main_v42 (Read.idx_main_v43 (ix2 r j)) = ix1 j := funext fun a => Fin.ext (by
    match a with
    | ⟨0, _⟩ => rfl)
  simp only [el, el', er, er', eb]
  rfl

/-- The reference spells gate `i`'s logistic as `1 / (1 + exp (−z))`: on the extended reals that IS the logistic. -/
theorem sig_i (x0 x1 : FVec Ideal S4096x1024 .f32) (x3 x4 : FVec Ideal S1024x1024 .f32) (x5 : FVec Ideal S1024 .f32) (i : S4096x1024.Idx) :
    Read.val_main_v13 (F := Ideal) x0 x1 x3 x4 x5 i = Ideal.logistic (Read.val_main_v7 (F := Ideal) x0 x1 x3 x4 x5 i) := by
  rw [Read.val_main_v13_apply, Read.val_main_v12_apply, Read.val_main_cst_0_apply, Read.val_main_v11_apply, Read.val_main_v10_apply, Read.val_main_cst_apply, Read.val_main_v9_apply, Read.val_main_v8_apply]
  simp only [Ideal.ofBits_def, Ideal.ofBits_one_f32]
  rfl

/-- The reference spells gate `f`'s logistic as `1 / (1 + exp (−z))`: on the extended reals that IS the logistic. -/
theorem sig_f (x0 x1 : FVec Ideal S4096x1024 .f32) (x6 x7 : FVec Ideal S1024x1024 .f32) (x8 : FVec Ideal S1024 .f32) (i : S4096x1024.Idx) :
    Read.val_main_v27 (F := Ideal) x0 x1 x6 x7 x8 i = Ideal.logistic (Read.val_main_v21 (F := Ideal) x0 x1 x6 x7 x8 i) := by
  rw [Read.val_main_v27_apply, Read.val_main_v26_apply, Read.val_main_cst_2_apply, Read.val_main_v25_apply, Read.val_main_v24_apply, Read.val_main_cst_1_apply, Read.val_main_v23_apply, Read.val_main_v22_apply]
  simp only [Ideal.ofBits_def, Ideal.ofBits_one_f32]
  rfl

/-- The reference spells gate `o`'s logistic as `1 / (1 + exp (−z))`: on the extended reals that IS the logistic. -/
theorem sig_o (x0 x1 : FVec Ideal S4096x1024 .f32) (x12 x13 : FVec Ideal S1024x1024 .f32) (x14 : FVec Ideal S1024 .f32) (i : S4096x1024.Idx) :
    Read.val_main_v50 (F := Ideal) x0 x1 x12 x13 x14 i = Ideal.logistic (Read.val_main_v44 (F := Ideal) x0 x1 x12 x13 x14 i) := by
  rw [Read.val_main_v50_apply, Read.val_main_v49_apply, Read.val_main_cst_4_apply, Read.val_main_v48_apply, Read.val_main_v47_apply, Read.val_main_cst_3_apply, Read.val_main_v46_apply, Read.val_main_v45_apply]
  simp only [Ideal.ofBits_def, Ideal.ofBits_one_f32]
  rfl

/-- The reference's new cell state is the cell's. -/
theorem cell_eq (x0 x1 x2 : FVec Ideal S4096x1024 .f32) (x3 x4 : FVec Ideal S1024x1024 .f32) (x5 : FVec Ideal S1024 .f32)
    (x6 x7 : FVec Ideal S1024x1024 .f32) (x8 : FVec Ideal S1024 .f32) (x9 x10 : FVec Ideal S1024x1024 .f32) (x11 : FVec Ideal S1024 .f32) :
    Read.val_main_v53 (F := Ideal) x0 x1 x2 x3 x4 x5 x6 x7 x8 x9 x10 x11 = LstmCell.newCell x0 x1 x2 x3 x4 x5 x6 x7 x8 x9 x10 x11 := by
  funext i
  obtain ⟨r, j, rfl⟩ : ∃ (r : Fin 4096) (j : Fin 1024), i = ix2 r j := ⟨i 0, i 1, eq_ix2 i⟩
  rw [Read.val_main_v53_apply, Read.val_main_v51_apply, Read.val_main_v52_apply, Read.val_main_v36_apply, sig_f, sig_i, pre_f, pre_i, pre_g]
  rfl

/-- The reference's new hidden state is the cell's. -/
theorem hidden_eq (x0 x1 x2 : FVec Ideal S4096x1024 .f32) (x3 x4 : FVec Ideal S1024x1024 .f32) (x5 : FVec Ideal S1024 .f32)
    (x6 x7 : FVec Ideal S1024x1024 .f32) (x8 : FVec Ideal S1024 .f32) (x9 x10 : FVec Ideal S1024x1024 .f32) (x11 : FVec Ideal S1024 .f32)
    (x12 x13 : FVec Ideal S1024x1024 .f32) (x14 : FVec Ideal S1024 .f32) :
    Read.val_main_v55 (F := Ideal) x0 x1 x2 x3 x4 x5 x6 x7 x8 x9 x10 x11 x12 x13 x14
      = LstmCell.newHidden x0 x1 x2 x3 x4 x5 x6 x7 x8 x9 x10 x11 x12 x13 x14 := by
  funext i
  obtain ⟨r, j, rfl⟩ : ∃ (r : Fin 4096) (j : Fin 1024), i = ix2 r j := ⟨i 0, i 1, eq_ix2 i⟩
  rw [Read.val_main_v55_apply, Read.val_main_v54_apply, sig_o, pre_o, cell_eq]
  rfl

end Cert.ReferenceIdeal.RefValue

end
-- ==== Proof.lean ====
/-
  A fused LSTM cell against its textbook reference, equal on the extended reals.

  The kernel joins the four gates' weight matrices along the leading axis (and the four biases end to end), and in one
  launch over sixteen blocks of 256 batch rows forms all four gates' pre-activations at once — the row block of x times
  the joined input weights, plus the row block of h_prev times the joined hidden weights, plus the joined bias — cuts
  the result into the gates' column bands and stores c' = σ(f)·c + σ(i)·tanh(g) and h' = σ(o)·tanh(c').
  The reference computes each gate separately, x·Wᵀ + h·Wᵀ + b with its own matrices, and spells σ(z) as 1/(1 + exp(−z)).
  Row 1024·g + j of a joined matrix is row j of gate g's matrix, so the kernel's column 1024·g + j of the joint
  pre-activation is the reference's gate-g pre-activation at column j, term for term and with the sums grouped the
  same way; the logistic is one function on the extended reals however it is spelt; a change of float format is
  the identity there.  So both programs' results are ONE function of the arguments (Spec.lean), and no law that could
  fail at an infinity is used: the precondition is never opened.

  Modules: KFrame / KIFrame — the two kernel programs run to the end and keep their arguments (the body's triple, the
  launch); PayAt — the body's arithmetic at an index; LibConcatFour — a four-piece join at an index; KIValue — what the
  idealized kernel's result arrays hold; RefValue — the reference's results read index by index.
-/
import proofs.«141358_j47588237639946_2_alg».proof.Defs
import proofs.«141358_j47588237639946_2_alg».proof.Proof.Gen.Kernel
import proofs.«141358_j47588237639946_2_alg».proof.Proof.Gen.KernelIdeal
import proofs.«141358_j47588237639946_2_alg».proof.Proof.Gen.ReferenceIdeal
import proofs.«141358_j47588237639946_2_alg».proof.Proof.Gen.Pre_finite_inputs
import proofs.«141358_j47588237639946_2_alg».proof.Proof.Gen.ReferenceIdeal.Run
import proofs.«141358_j47588237639946_2_alg».proof.Proof.KFrame
import proofs.«141358_j47588237639946_2_alg».proof.Proof.KIFrame
import proofs.«141358_j47588237639946_2_alg».proof.Proof.KIValue
import proofs.«141358_j47588237639946_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the cell's new hidden and cell states of arguments that agree. -/
theorem algebraic : Cert.algebraic_KernelIdeal_ReferenceIdeal := by
  intro m ρ m' ρ' _ hagree
  refine ⟨fun c => Cert.KernelIdeal.Val.hiddenArr m c, fun c => Cert.KernelIdeal.Val.cellArr m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    rw [Cert.ReferenceIdeal.Read.val_main_v55_eq, Cert.ReferenceIdeal.RefValue.hidden_eq, e0, e1, e2, e3, e4, e5, e6, e7, e8, e9, e10, e11, e12, e13, e14]
    rfl
  · obtain ⟨e0, e1, e2, e3, e4, e5, e6, e7, e8, e9, e10, e11, e12, e13, e14⟩ := hagree c
    rw [Cert.ReferenceIdeal.Read.val_main_v53_eq, Cert.ReferenceIdeal.RefValue.cell_eq, e0, e1, e2, e3, e4, e5, e6, e7, e8, e9, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
